-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3 : Shape := ⟨3, ![4, 2048, 3]⟩
abbrev S4x2048x2048 : Shape := ⟨3, ![4, 2048, 2048]⟩
abbrev S4x2048 : Shape := ⟨2, ![4, 2048]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel

variable [Facts]

def fn {F : FTy → Type} [FloatOps F] (main_arg0 : FVec F S4x2048x3 .f32) (main_arg1 : IVec S4x2048x2048 32) (main_arg2 : IVec S4x2048 1) : IVec S_ 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_c : IVec S_ 1 := constantI S_ 1 1#1
  let main_v3 : IVec S_ 1 := (fun x v => Host.reduce IntOp.andi x v reducesTo_S4x2048x3_S_d0_1_2 h_S_) main_v2 main_c
  main_v3
-- ==== Kernel.lean ====
abbrev S4x2048x3 : Shape := ⟨3, ![4, 2048, 3]⟩
abbrev S4x2048x2048 : Shape := ⟨3, ![4, 2048, 2048]⟩
abbrev S4x2048 : Shape := ⟨2, ![4, 2048]⟩
abbrev S4x2048x1 : Shape := ⟨3, ![4, 2048, 1]⟩
abbrev S_ : Shape := ⟨0, ![]⟩
abbrev S4x2048x2048x1 : Shape := ⟨4, ![4, 2048, 2048, 1]⟩
abbrev S4x1x2048 : Shape := ⟨3, ![4, 1, 2048]⟩
abbrev S1x256x2048 : Shape := ⟨3, ![1, 256, 2048]⟩
abbrev S1x256x1 : Shape := ⟨3, ![1, 256, 1]⟩
abbrev S1x1x2048 : Shape := ⟨3, ![1, 1, 2048]⟩
abbrev S256x2048 : Shape := ⟨2, ![256, 2048]⟩
abbrev S256x1 : Shape := ⟨2, ![256, 1]⟩
abbrev S1x2048 : Shape := ⟨2, ![1, 2048]⟩

abbrev nBuf : Space → Nat
  | .hbm => 54
  | .vmem => 8
  | .smem => 0
  | _ => 0

abbrev bufTy : (tb : Table) → Fin (tcTables nBuf tb) → BufTy
  | .hbm, ⟨0, _⟩ => ⟨S4x2048x3, .f32⟩
  | .hbm, ⟨1, _⟩ => ⟨S4x2048x2048, .i32⟩
  | .hbm, ⟨2, _⟩ => ⟨S4x2048, .i1⟩
  | .hbm, ⟨3, _⟩ => ⟨S4x2048x1, .f32⟩
  | .hbm, ⟨4, _⟩ => ⟨S4x2048, .f32⟩
  | .hbm, ⟨5, _⟩ => ⟨S4x2048x1, .f32⟩
  | .hbm, ⟨6, _⟩ => ⟨S4x2048, .f32⟩
  | .hbm, ⟨7, _⟩ => ⟨S4x2048x1, .f32⟩
  | .hbm, ⟨8, _⟩ => ⟨S4x2048, .f32⟩
  | .hbm, ⟨9, _⟩ => ⟨S_, .i32⟩
  | .hbm, ⟨10, _⟩ => ⟨S4x2048x2048, .i32⟩
  | .hbm, ⟨11, _⟩ => ⟨S4x2048x2048, .i1⟩
  | .hbm, ⟨12, _⟩ => ⟨S_, .i32⟩
  | .hbm, ⟨13, _⟩ => ⟨S4x2048x2048, .i32⟩
  | .hbm, ⟨14, _⟩ => ⟨S4x2048x2048, .i32⟩
  | .hbm, ⟨15, _⟩ => ⟨S4x2048x2048, .i32⟩
  | .hbm, ⟨16, _⟩ => ⟨S4x2048x2048x1, .i32⟩
  | .hbm, ⟨17, _⟩ => ⟨S4x2048x2048, .f32⟩
  | .hbm, ⟨18, _⟩ => ⟨S_, .i32⟩
  | .hbm, ⟨19, _⟩ => ⟨S4x2048x2048, .i32⟩
  | .hbm, ⟨20, _⟩ => ⟨S4x2048x2048, .i1⟩
  | .hbm, ⟨21, _⟩ => ⟨S_, .i32⟩
  | .hbm, ⟨22, _⟩ => ⟨S4x2048x2048, .i32⟩
  | .hbm, ⟨23, _⟩ => ⟨S4x2048x2048, .i32⟩
  | .hbm, ⟨24, _⟩ => ⟨S4x2048x2048, .i32⟩
  | .hbm, ⟨25, _⟩ => ⟨S4x2048x2048x1, .i32⟩
  | .hbm, ⟨26, _⟩ => ⟨S4x2048x2048, .f32⟩
  | .hbm, ⟨27, _⟩ => ⟨S_, .i32⟩
  | .hbm, ⟨28, _⟩ => ⟨S4x2048x2048, .i32⟩
  | .hbm, ⟨29, _⟩ => ⟨S4x2048x2048, .i1⟩
  | .hbm, ⟨30, _⟩ => ⟨S_, .i32⟩
  | .hbm, ⟨31, _⟩ => ⟨S4x2048x2048, .i32⟩
  | .hbm, ⟨32, _⟩ => ⟨S4x2048x2048, .i32⟩
  | .hbm, ⟨33, _⟩ => ⟨S4x2048x2048, .i32⟩
  | .hbm, ⟨34, _⟩ => ⟨S4x2048x2048x1, .i32⟩
  | .hbm, ⟨35, _⟩ => ⟨S4x2048x2048, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048, .f32⟩
  | .hbm, ⟨51, _⟩ => ⟨S4x2048x1, .f32⟩
  | .hbm, ⟨52, _⟩ => ⟨S4x1x2048, .f32⟩
  | .hbm, ⟨53, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c : Ref sig .tc := ⟨.hbm, 9, rfl⟩
abbrev main_call0_v6 : Ref sig .tc := ⟨.hbm, 10, rfl⟩
abbrev main_call0_v7 : Ref sig .tc := ⟨.hbm, 11, rfl⟩
abbrev main_call0_c_0 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_c_1 : Ref sig .tc := ⟨.hbm, 18, rfl⟩
abbrev main_call0_v13 : Ref sig .tc := ⟨.hbm, 19, rfl⟩
abbrev main_call0_v14 : Ref sig .tc := ⟨.hbm, 20, rfl⟩
abbrev main_call0_c_2 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_c_3 : Ref sig .tc := ⟨.hbm, 27, rfl⟩
abbrev main_call0_v20 : Ref sig .tc := ⟨.hbm, 28, rfl⟩
abbrev main_call0_v21 : Ref sig .tc := ⟨.hbm, 29, rfl⟩
abbrev main_call0_c_4 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_v33 : Ref sig .tc := ⟨.hbm, 42, rfl⟩
abbrev main_call0_v34 : Ref sig .tc := ⟨.hbm, 43, rfl⟩
abbrev main_call0_v35 : Ref sig .tc := ⟨.hbm, 44, rfl⟩
abbrev main_call0_v36 : Ref sig .tc := ⟨.hbm, 45, rfl⟩
abbrev main_call0_v37 : Ref sig .tc := ⟨.hbm, 46, rfl⟩
abbrev main_call0_v38 : Ref sig .tc := ⟨.hbm, 47, rfl⟩
abbrev main_call0_v39 : Ref sig .tc := ⟨.hbm, 48, rfl⟩
abbrev main_call0_v40 : Ref sig .tc := ⟨.hbm, 49, rfl⟩
abbrev main_call0_v41 : Ref sig .tc := ⟨.hbm, 50, rfl⟩
abbrev main_call0_v42 : Ref sig .tc := ⟨.hbm, 51, rfl⟩
abbrev main_call0_v43 : Ref sig .tc := ⟨.hbm, 52, rfl⟩
abbrev main_v0 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4x2048x3_S4x2048x1_0_0_0 : S4x2048x3.Slices ![0, 0, 0] S4x2048x1
  shapeCasts_S4x2048x1_S4x2048 : S4x2048x1.ShapeCasts S4x2048
  slices_S4x2048x3_S4x2048x1_0_0_1 : S4x2048x3.Slices ![0, 0, 1] S4x2048x1
  slices_S4x2048x3_S4x2048x1_0_0_2 : S4x2048x3.Slices ![0, 0, 2] S4x2048x1
  bcast_S_S4x2048x2048 : S_.BroadcastsInDim S4x2048x2048 (![] : Fin 0 → Fin S4x2048x2048.rank)
  bcast_S4x2048x2048_S4x2048x2048x1_0_1_2 : S4x2048x2048.BroadcastsInDim S4x2048x2048x1 (![0, 1, 2] : Fin 3 → Fin S4x2048x2048x1.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  shapeCasts_S4x2048_S4x2048x1 : S4x2048.ShapeCasts S4x2048x1
  shapeCasts_S4x2048_S4x1x2048 : S4x2048.ShapeCasts S4x1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  iota_S256x2048_d0_w32 : S256x2048.Iotas .tc 32 [0]
  iota_S256x2048_d1_w32 : S256x2048.Iotas .tc 32 [1]
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  shapeCasts_S256x2048_S1x256x2048 : S256x2048.ShapeCasts S1x256x2048
  gather_S4x2048_S4x2048x2048x1_S4x2048x2048_n_1_0_0_1_3_11_wf : GatherDims.WF S4x2048 S4x2048x2048x1 S4x2048x2048 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .f32 = 32 ∨ (Rect.block (s := S4x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S4x2048x1.size a
  hwx0_1 : ∀ i : grid0.Coords, EltTy.bits .f32 = 32 ∨ (Rect.block (s := S4x2048x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .f32 = 32 ∨ (Rect.block (s := S4x2048x2048) S1x256x2048.size (cc0_transform_3 i) (hinb0_3 i)).WholeWords (EltTy.packing .f32)

variable [Facts₀]

def gather_S4x2048_S4x2048x2048x1_S4x2048x2048_n_1_0_0_1_3_11 : GatherDims S4x2048 S4x2048x2048x1 S4x2048x2048 where
  offsetDims := []
  collapsedSliceDims := [1]
  operandBatchingDims := [0]
  startIndicesBatchingDims := [0]
  startIndexMap := [1]
  indexVectorDim := 3
  sliceSizes := ![1, 1]
  wf := gather_S4x2048_S4x2048x2048x1_S4x2048x2048_n_1_0_0_1_3_11_wf

abbrev win0_0 : Pipeline.Window sig grid0 :=
  Pipeline.Window.ofSpec (Memref.whole main_call0_v40) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v42) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v43) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x3 : Shape := ⟨3, ![4, 2048, 3]⟩
abbrev S4x2048x2048 : Shape := ⟨3, ![4, 2048, 2048]⟩
abbrev S4x2048 : Shape := ⟨2, ![4, 2048]⟩
abbrev S4 : Shape := ⟨1, ![4]⟩
abbrev S4x1x1 : Shape := ⟨3, ![4, 1, 1]⟩
abbrev S_ : Shape := ⟨0, ![]⟩
abbrev S4x2048x2048x1 : Shape := ⟨4, ![4, 2048, 2048, 1]⟩
abbrev S4x2048x2048x2 : Shape := ⟨4, ![4, 2048, 2048, 2]⟩
abbrev S4x2048x2048x3 : Shape := ⟨4, ![4, 2048, 2048, 3]⟩
abbrev S4x2048x1x3 : Shape := ⟨4, ![4, 2048, 1, 3]⟩
abbrev S4x2048x1 : Shape := ⟨3, ![4, 2048, 1]⟩
abbrev S4x1x2048 : Shape := ⟨3, ![4, 1, 2048]⟩
abbrev S2048x2048 : Shape := ⟨2, ![2048, 2048]⟩
abbrev S1x2048x2048 : Shape := ⟨3, ![1, 2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x2048, .i32⟩
  | .hbm, ⟨2, _⟩ => ⟨S4x2048, .i1⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S_, .i32⟩
  | .hbm, ⟨9, _⟩ => ⟨S4x1x1, .i32⟩
  | .hbm, ⟨10, _⟩ => ⟨S4x1x1, .i32⟩
  | .hbm, ⟨11, _⟩ => ⟨S4x1x1, .i32⟩
  | .hbm, ⟨12, _⟩ => ⟨S_, .i32⟩
  | .hbm, ⟨13, _⟩ => ⟨S4x2048x2048, .i32⟩
  | .hbm, ⟨14, _⟩ => ⟨S4x2048x2048, .i1⟩
  | .hbm, ⟨15, _⟩ => ⟨S_, .i32⟩
  | .hbm, ⟨16, _⟩ => ⟨S4x2048x2048, .i32⟩
  | .hbm, ⟨17, _⟩ => ⟨S4x2048x2048, .i32⟩
  | .hbm, ⟨18, _⟩ => ⟨S4x2048x2048, .i32⟩
  | .hbm, ⟨19, _⟩ => ⟨S4x2048x2048, .i32⟩
  | .hbm, ⟨20, _⟩ => ⟨S4x2048x2048x1, .i32⟩
  | .hbm, ⟨21, _⟩ => ⟨S4x2048x2048x1, .i32⟩
  | .hbm, ⟨22, _⟩ => ⟨S4x2048x2048x2, .i32⟩
  | .hbm, ⟨23, _⟩ => ⟨S4x2048x2048x3, .f32⟩
  | .hbm, ⟨24, _⟩ => ⟨S4x2048x1x3, .f32⟩
  | .hbm, ⟨25, _⟩ => ⟨S4x2048x2048x3, .f32⟩
  | .hbm, ⟨26, _⟩ => ⟨S4x2048x2048x3, .f32⟩
  | .hbm, ⟨27, _⟩ => ⟨S4x2048x2048x3, .f32⟩
  | .hbm, ⟨28, _⟩ => ⟨S_, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .i1⟩
  | .hbm, ⟨33, _⟩ => ⟨S_, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .i1⟩
  | .hbm, ⟨41, _⟩ => ⟨S_, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x1, .i1⟩
  | .hbm, ⟨52, _⟩ => ⟨S4x1x2048, .i1⟩
  | .hbm, ⟨53, _⟩ => ⟨S4x2048x2048, .i1⟩
  | .hbm, ⟨54, _⟩ => ⟨S4x2048x2048, .i1⟩
  | .hbm, ⟨55, _⟩ => ⟨S4x2048x2048, .i1⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S1x2048x2048, .i1⟩
  | .hbm, ⟨63, _⟩ => ⟨S_, .f32⟩
  | .hbm, ⟨64, _⟩ => ⟨S_, .f32⟩
  | .hbm, ⟨65, _⟩ => ⟨S4x2048x2048, .i1⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S_, .f32⟩
  | .hbm, ⟨70, _⟩ => ⟨S4x2048x2048, .f32⟩
  | .hbm, ⟨71, _⟩ => ⟨S4x2048x2048, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v44 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x2048x2048 : S_.BroadcastsInDim S4x2048x2048 (![] : Fin 0 → Fin S4x2048x2048.rank)
  bcast_S4x1x1_S4x2048x2048_0_1_2 : S4x1x1.BroadcastsInDim S4x2048x2048 (![0, 1, 2] : Fin 3 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  bcast_S4x2048x3_S4x2048x1x3_0_1_3 : S4x2048x3.BroadcastsInDim S4x2048x1x3 (![0, 1, 3] : Fin 3 → Fin S4x2048x1x3.rank)
  bcast_S4x2048x1x3_S4x2048x2048x3_0_1_2_3 : S4x2048x1x3.BroadcastsInDim S4x2048x2048x3 (![0, 1, 2, 3] : Fin 4 → Fin S4x2048x2048x3.rank)
  reducesTo_S4x2048x2048x3_S4x2048x2048_d3 : S4x2048x2048x3.ReducesTo [3] S4x2048x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  gather_S4x2048x3_S4x2048x2048x2_S4x2048x2048x3_3_01_n_n_01_3_113_wf : GatherDims.WF S4x2048x3 S4x2048x2048x2 S4x2048x2048x3 [3] [0, 1] [] [0, 1] [] 3 ![1, 1, 3]

variable [Facts₀]

def gather_S4x2048x3_S4x2048x2048x2_S4x2048x2048x3_3_01_n_n_01_3_113 : GatherDims S4x2048x3 S4x2048x2048x2 S4x2048x2048x3 where
  offsetDims := [3]
  collapsedSliceDims := [0, 1]
  operandBatchingDims := []
  startIndicesBatchingDims := []
  startIndexMap := [0, 1]
  indexVectorDim := 3
  sliceSizes := ![1, 1, 3]
  wf := gather_S4x2048x3_S4x2048x2048x2_S4x2048x2048x3_3_01_n_n_01_3_113_wf

class Facts : Prop extends Facts₀ where

variable [Facts]
-- ==== Proof.Spec.lean ====
/-
  The specification: the pairwise inverse-distance table as ONE function of the three argument arrays, index by index.

  For a batch `b`, a query atom `i` and a slot `j`, the neighbour index `nbr[b, i, j]` names an atom the way an array
  subscript does: a negative index counts from the end (`wrap`), and the index is then read signed and clamped into
  `[0, 2047]` (`row`). With `δ k` the difference of coordinate `k` between that atom and atom `i`, the squared distance
  is `(δ 0 · δ 0 + δ 1 · δ 1) + δ 2 · δ 2`; the distance is its square root where it is positive and `0` elsewhere (the
  square root is taken of `1` there, so nothing is asked of it at `0`); the entry is `1 / (distance + ε)`, replaced by
  `0` on the diagonal `i = j`, and by `0` wherever atom `i` or atom `j` is masked out.

  Everything is written with the scalar operations the two programs apply, at the extended reals, so that each side
  meets this function by rewriting, and the float literals stay the words they are: the same word on both sides is
  never evaluated.
-/
import Idealize.ShloMosaic.PureOps.Ideal
import Idealize.ShloMosaic.PureOps.Ideal.Laws
import Idealize.ShloMosaic.Lib.ValueIdx

noncomputable section

namespace AtomDist

open Idealize.ShloMosaic Idealize.ShloMosaic.ValueIdx

/-- Atom positions, `[batch, atom, coordinate]`. -/
abbrev Pos : Type := (⟨3, ![4, 2048, 3]⟩ : Shape).Idx → Ideal .f32
/-- Neighbour indices, `[batch, atom, slot]`. -/
abbrev Nbr : Type := (⟨3, ![4, 2048, 2048]⟩ : Shape).Idx → BitVec 32
/-- The per-atom mask, `[batch, atom]`. -/
abbrev Msk : Type := (⟨2, ![4, 2048]⟩ : Shape).Idx → BitVec 1
/-- The result, `[batch, atom, slot]`. -/
abbrev Out : Type := (⟨3, ![4, 2048, 2048]⟩ : Shape).Idx → Ideal .f32

/-- A subscript that counts from the end when it is negative: `n + 2048` for `n < 0`, else `n`. -/
def wrap (n : BitVec 32) : BitVec 32 := Scalar.select (IntOp.cmpi .slt n 0#32) (IntOp.addi n 2048#32) n

/-- The atom a neighbour index names: the wrapped index read signed, clamped into `[0, 2047]`. -/
def row (n : BitVec 32) : Fin 2048 := ⟨min (wrap n).toInt.toNat 2047, by omega⟩

/-- Coordinate `k` of the neighbour in slot `j` of atom `i`, less the same coordinate of atom `i`. -/
def delta (pos : Pos) (nbr : Nbr) (b : Fin 4) (i j : Fin 2048) (k : Fin 3) : Ideal .f32 :=
  pos (ix3 b (row (nbr (ix3 b i j))) k) - pos (ix3 b i k)

/-- The squared distance between atom `i` and its neighbour in slot `j`. -/
def sqDist (pos : Pos) (nbr : Nbr) (b : Fin 4) (i j : Fin 2048) : Ideal .f32 :=
  (delta pos nbr b i j 0 * delta pos nbr b i j 0 + delta pos nbr b i j 1 * delta pos nbr b i j 1)
    + delta pos nbr b i j 2 * delta pos nbr b i j 2

/-- `1 / (√d2 + ε)` with the square root guarded at `d2 ≤ 0`: the distance is `0` there. -/
def invDist (d2 : Ideal .f32) : Ideal .f32 :=
  Ideal.div (Ideal.ofBits .f32 0x3F800000#32)
    (Scalar.select (Ideal.cmp .ogt d2 (Ideal.ofBits .f32 0x00000000#32))
        (Ideal.sqrt (Scalar.select (Ideal.cmp .ogt d2 (Ideal.ofBits .f32 0x00000000#32)) d2 (Ideal.ofBits .f32 0x3F800000#32)))
        (Ideal.ofBits .f32 0x00000000#32)
      + Ideal.ofBits .f32 0x322BCC77#32)

/-- The bit "slot `j` of atom `i` is the diagonal": the two positions compared as 32-bit words. -/
def onDiag (i j : Fin 2048) : BitVec 1 := IntOp.cmpi .eq (BitVec.ofNat 32 i.val) (BitVec.ofNat 32 j.val)

/-- The bit "atoms `i` and `j` of batch `b` are both kept by the mask". -/
def bothKept (msk : Msk) (b : Fin 4) (i j : Fin 2048) : BitVec 1 := IntOp.andi (msk (ix2 b i)) (msk (ix2 b j))

/-- An entry from its three ingredients: the inverse distance, zeroed on the diagonal, then zeroed off the mask. -/
def entry (d2 : Ideal .f32) (diag valid : BitVec 1) : Ideal .f32 :=
  Scalar.select valid (Scalar.select diag (Ideal.ofBits .f32 0x00000000#32) (invDist d2)) (Ideal.ofBits .f32 0x00000000#32)

/-- THE RESULT at `(b, i, j)`. -/
def table (pos : Pos) (nbr : Nbr) (msk : Msk) : Out :=
  fun y => entry (sqDist pos nbr (y 0) (y 1) (y 2)) (onDiag (y 1) (y 2)) (bothKept msk (y 0) (y 1) (y 2))

theorem table_apply (pos : Pos) (nbr : Nbr) (msk : Msk) (b : Fin 4) (i j : Fin 2048) :
    table pos nbr msk (ix3 b i j) = entry (sqDist pos nbr b i j) (onDiag i j) (bothKept msk b i j) := rfl

/-! ## The two laws that join the sides -/

/-- The reference sums the three squares from `0`; the kernel adds them pairwise. One sum on the extended reals. -/
theorem zero_add_sum_three (f : Fin 3 → Ideal .f32) :
    Ideal.ofBits .f32 0x00000000#32 + ∑ k : Fin 3, f k = (f 0 + f 1) + f 2 := by
  rw [Ideal.ofBits_zero_f32, zero_add, Fin.sum_univ_three]

/-- The kernel multiplies the two mask bits as floats (`0` or `1`) and asks whether the product is positive; the
    reference takes their conjunction. One bit. -/
theorem mask_product (a c : BitVec 1) :
    Ideal.cmp .ogt ((((a.toNat : ℝ) : EReal)) * (((c.toNat : ℝ) : EReal))) (Ideal.ofBits .f32 0x00000000#32) = IntOp.andi a c := by
  rw [Ideal.ofBits_zero_f32]
  rcases BitVec.eq_zero_or_eq_one a with ha | ha <;> rcases BitVec.eq_zero_or_eq_one c with hc | hc <;> subst ha <;> subst hc <;>
    simp [Ideal.cmp, IntOp.andi]

end AtomDist

end
-- ==== Proof.LibGatherBatched.lean ====
/-
  `stablehlo.gather` with ONE batching axis, read at an index.

  What `jax.vmap(lambda table, idx: table[idx])` of a table `[B, N]` at integer indices `[B, R, C]` lowers to: a gather
  whose operand axis 0 is a batching axis paired with axis 0 of the start indices `[B, R, C, 1]`, whose start index map
  is operand axis 1 (collapsed, slice size 1) and whose index vector is the trailing unit axis. Result element
  `(b, i, j)` is the table's row `b` at the start index `idx[b, i, j, 0]` read as a signed integer and clamped into
  `[0, N − 1]`, as StableHLO's gather clamps every start index.
-/
import Idealize.ShloMosaic.Lib.ValueIdx

noncomputable section

namespace GatherBatched

open Idealize.ShloMosaic Idealize.ShloMosaic.ValueIdx

variable {α : Type}

/-- Those dimension numbers for an operand `[B, N]`, start indices `[B, R, C, 1]` and a result `[B, R, C]`; their
    conditions `wf` are decided on a program's literal shapes. -/
abbrev dims (B N R C : Nat)
    (wf : GatherDims.WF ⟨2, ![B, N]⟩ ⟨4, ![B, R, C, 1]⟩ ⟨3, ![B, R, C]⟩ [] [1] [0] [1] [0] 3 ![1, 1]) :
    GatherDims ⟨2, ![B, N]⟩ ⟨4, ![B, R, C, 1]⟩ ⟨3, ![B, R, C]⟩ where
  offsetDims := []
  collapsedSliceDims := [1]
  operandBatchingDims := [0]
  startIndicesBatchingDims := [0]
  startIndexMap := [1]
  indexVectorDim := 3
  sliceSizes := ![1, 1]
  wf := wf

/-- THE GATHER READ AT `(b, i, j)`: row `b` of the operand at the start index `idx[b, i, j, 0]`, read signed and clamped
    into `[0, N − 1]`. -/
theorem gather_apply {B N R C w : Nat} (hN : 0 < N)
    (wf : GatherDims.WF ⟨2, ![B, N]⟩ ⟨4, ![B, R, C, 1]⟩ ⟨3, ![B, R, C]⟩ [] [1] [0] [1] [0] 3 ![1, 1])
    (x : (⟨2, ![B, N]⟩ : Shape).Idx → α) (idx : IVec ⟨4, ![B, R, C, 1]⟩ w) (b : Fin B) (i : Fin R) (j : Fin C) :
    Host.gather (dims B N R C wf) x idx (ix3 b i j)
      = x (ix2 b ⟨min (idx (ix4 b i j ⟨0, Nat.one_pos⟩)).toInt.toNat (N - 1), by omega⟩) := by
  unfold Host.gather
  refine congrArg x (funext fun a => Fin.ext ?_)
  match a with
  | ⟨0, _⟩ =>
    -- the batching axis: no start, no offset, the result's own batch coordinate
    show (dims B N R C wf).start (ix3 b i j) idx 0 + (dims B N R C wf).batchCoord (ix3 b i j) 0
      + (dims B N R C wf).offCoord (ix3 b i j) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (dims B N R C wf).operandBatchingDims from List.mem_singleton.mpr rfl)]
    rfl
  | ⟨1, _⟩ =>
    -- the indexed axis: the clamped start, nothing else
    show (dims B N R C wf).start (ix3 b i j) idx 1 + (dims B N R C wf).batchCoord (ix3 b i j) 1
      + (dims B N R C wf).offCoord (ix3 b i j) 1 = min (idx (ix4 b i j ⟨0, Nat.one_pos⟩)).toInt.toNat (N - 1)
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims B N R C wf).startIndexMap from List.mem_singleton.mpr rfl)]
    have hsi : (dims B N R C wf).siIdx (ix3 b i j) ⟨List.idxOf (1 : Fin 2) (dims B N R C wf).startIndexMap,
        List.idxOf_lt_length_iff.2 (List.mem_singleton.mpr rfl)⟩ = ix4 b i j ⟨0, Nat.one_pos⟩ := by
      funext c; refine Fin.ext ?_
      match c with
      | ⟨0, _⟩ => rfl
      | ⟨1, _⟩ => rfl
      | ⟨2, _⟩ => rfl
      | ⟨3, _⟩ => rfl
    rw [hsi]
    rfl

end GatherBatched

end
-- ==== Proof.HostPrefix.lean ====
/-
  The three arrays the kernel's one region stages, as the host operations before it leave them.

  Before the region the program slices the positions into their three coordinate columns, wraps the neighbour
  indices like subscripts, gathers each column at them row by row, subtracts the atom's own coordinate (broadcast along
  the slots), squares and adds the three differences pairwise: that array, `[4, 2048, 2048]`, is the squared distance
  table. It also converts the mask bits to floats and lays them out once as a column `[4, 2048, 1]` and once as a row
  `[4, 1, 2048]`.
-/
import proofs.«160509_j42941083025444_2_alg».proof.Proof.FrameKernelIdeal
import proofs.«160509_j42941083025444_2_alg».proof.Proof.Spec
import proofs.«160509_j42941083025444_2_alg».proof.Proof.LibGatherBatched
import Idealize.ShloMosaic.Lib.StableHlo.Run
import Idealize.ShloMosaic.Lib.Pipeline.Value
import Idealize.ShloMosaic.PureOps.Ideal

noncomputable section

namespace AtomDist.Host

open Cert.KernelIdeal Cert.KernelIdeal.Gen Cert.KernelIdeal.GenP
open Idealize.ShloMosaic Idealize.ShloMosaic.TcCoe Idealize.SL.Sem Idealize.ShloMosaic.StableHlo Idealize.ShloMosaic.ValueIdx

/-! ## The stages, as whole-array terms of the arguments -/

/-- The neighbour indices wrapped like subscripts, with the trailing unit axis the gather reads them through. -/
def wrapV (nbr : S4x2048x2048.Idx → BitVec 32) : S4x2048x2048x1.Idx → BitVec 32 :=
  broadcastInDim S4x2048x2048x1 ![0, 1, 2] bcast_S4x2048x2048_S4x2048x2048x1_0_1_2
    (select (cmpi .slt nbr (broadcastInDim S4x2048x2048 ![] bcast_S_S4x2048x2048 (constantI S_ 32 0#32)))
      (addi nbr (broadcastInDim S4x2048x2048 ![] bcast_S_S4x2048x2048 (constantI S_ 32 2048#32))) nbr)

/-- One coordinate column of the positions, `[4, 2048]`: the slice at offset `off` on the last axis, its unit axis dropped. -/
def col (off : Fin 3 → Nat) (h : S4x2048x3.Slices off S4x2048x1) (pos : S4x2048x3.Idx → Ideal .f32) : S4x2048.Idx → Ideal .f32 :=
  shapeCast S4x2048 (extractStridedSlice S4x2048x1 off pos h) shapeCasts_S4x2048x1_S4x2048

/-- The difference of one coordinate: the column gathered at the wrapped neighbour indices, less the column itself
    broadcast along the slots. -/
def diff (off : Fin 3 → Nat) (h : S4x2048x3.Slices off S4x2048x1) (pos : S4x2048x3.Idx → Ideal .f32)
    (nbr : S4x2048x2048.Idx → BitVec 32) : S4x2048x2048.Idx → Ideal .f32 :=
  subf (Host.gather gather_S4x2048_S4x2048x2048x1_S4x2048x2048_n_1_0_0_1_3_11 (col off h pos) (wrapV nbr))
    (broadcastInDim S4x2048x2048 ![0, 1, 2] bcast_S4x2048x1_S4x2048x2048_0_1_2
      (broadcastInDim S4x2048x1 ![0, 1] bcast_S4x2048_S4x2048x1_0_1 (col off h pos)))

/-- The squared distance table as the host computes it: the three squared differences added pairwise. -/
def d2V (pos : S4x2048x3.Idx → Ideal .f32) (nbr : S4x2048x2048.Idx → BitVec 32) : S4x2048x2048.Idx → Ideal .f32 :=
  addf (addf (mulf (diff ![0, 0, 0] slices_S4x2048x3_S4x2048x1_0_0_0 pos nbr) (diff ![0, 0, 0] slices_S4x2048x3_S4x2048x1_0_0_0 pos nbr))
      (mulf (diff ![0, 0, 1] slices_S4x2048x3_S4x2048x1_0_0_1 pos nbr) (diff ![0, 0, 1] slices_S4x2048x3_S4x2048x1_0_0_1 pos nbr)))
    (mulf (diff ![0, 0, 2] slices_S4x2048x3_S4x2048x1_0_0_2 pos nbr) (diff ![0, 0, 2] slices_S4x2048x3_S4x2048x1_0_0_2 pos nbr))

/-- The mask as floats, laid out as a column. -/
def rowMaskV (msk : S4x2048.Idx → BitVec 1) : S4x2048x1.Idx → Ideal .f32 :=
  shapeCast S4x2048x1 (uitofp (F := Ideal) .f32 msk) shapeCasts_S4x2048_S4x2048x1
/-- The mask as floats, laid out as a row. -/
def colMaskV (msk : S4x2048.Idx → BitVec 1) : S4x1x2048.Idx → Ideal .f32 :=
  shapeCast S4x1x2048 (uitofp (F := Ideal) .f32 msk) shapeCasts_S4x2048_S4x1x2048

/-! ## The stages read at an index -/

/-- The wrapped neighbour index at `(b, i, j, 0)` is the subscript wrap of `nbr[b, i, j]`. -/
theorem wrapV_apply (nbr : S4x2048x2048.Idx → BitVec 32) (b : Fin 4) (i j : Fin 2048) :
    wrapV nbr (ix4 b i j ⟨0, Nat.one_pos⟩) = AtomDist.wrap (nbr (ix3 b i j)) := by
  unfold wrapV
  refine (broadcastInDim_apply _ bcast_S4x2048x2048_S4x2048x2048x1_0_1_2 _ (ix4 b i j ⟨0, Nat.one_pos⟩) (ix3 b i j) (fun a => match a with
    | ⟨0, _⟩ => by show b.val = if (4 : Nat) = 1 then 0 else b.val; rw [if_neg (by decide)]
    | ⟨1, _⟩ => by show i.val = if (2048 : Nat) = 1 then 0 else i.val; rw [if_neg (by decide)]
    | ⟨2, _⟩ => by show j.val = if (2048 : Nat) = 1 then 0 else j.val; rw [if_neg (by decide)])).trans ?_
  rfl

/-- Column `kk` of the positions at `(b, i)` is `pos[b, i, kk]`: the reshape keeps the row-major position, the slice
    shifts the last coordinate by its offset. -/
theorem col_apply (kk : Nat) (hk : kk < 3) (h : S4x2048x3.Slices ![0, 0, kk] S4x2048x1) (pos : S4x2048x3.Idx → Ideal .f32)
    (b : Fin 4) (i : Fin 2048) : col ![0, 0, kk] h pos (ix2 b i) = pos (ix3 b i ⟨kk, hk⟩) := by
  unfold col
  refine (shapeCast_apply _ shapeCasts_S4x2048x1_S4x2048 (ix2 b i) (ix3 b i ⟨0, Nat.one_pos⟩) ?_).trans ?_
  · rw [Shape.rowMajor_val_three, Shape.rowMajor_val_two]
    show (b.val * 2048 + i.val) * 1 + 0 = b.val * 2048 + i.val
    omega
  · exact extractStridedSlice_apply _ pos h (ix3 b i ⟨0, Nat.one_pos⟩) (ix3 b i ⟨kk, hk⟩) (fun a => match a with
      | ⟨0, _⟩ => by show b.val = 0 + b.val; omega
      | ⟨1, _⟩ => by show i.val = 0 + i.val; omega
      | ⟨2, _⟩ => by show kk = kk + 0; omega)

/-- The program's gather at `(b, i, j)`: row `b` of the table at the start index read signed and clamped into `[0, 2047]`. -/
theorem gather_col_apply (x : S4x2048.Idx → Ideal .f32) (idx : S4x2048x2048x1.Idx → BitVec 32) (b : Fin 4) (i j : Fin 2048) :
    Host.gather gather_S4x2048_S4x2048x2048x1_S4x2048x2048_n_1_0_0_1_3_11 x idx (ix3 b i j)
      = x (ix2 b ⟨min (idx (ix4 b i j ⟨0, Nat.one_pos⟩)).toInt.toNat 2047, by omega⟩) :=
  GatherBatched.gather_apply (B := 4) (N := 2048) (R := 2048) (C := 2048) (by decide)
    gather_S4x2048_S4x2048x2048x1_S4x2048x2048_n_1_0_0_1_3_11_wf x idx b i j

/-- A per-atom value broadcast along the slots reads the atom's own value. -/
theorem selfBcast_apply (y : S4x2048.Idx → Ideal .f32) (b : Fin 4) (i j : Fin 2048) :
    broadcastInDim S4x2048x2048 ![0, 1, 2] bcast_S4x2048x1_S4x2048x2048_0_1_2
      (broadcastInDim S4x2048x1 ![0, 1] bcast_S4x2048_S4x2048x1_0_1 y) (ix3 b i j) = y (ix2 b i) := by
  refine (broadcastInDim_apply _ bcast_S4x2048x1_S4x2048x2048_0_1_2 _ (ix3 b i j) (ix3 b i ⟨0, Nat.one_pos⟩) (fun a => match a with
    | ⟨0, _⟩ => by show b.val = if (4 : Nat) = 1 then 0 else b.val; rw [if_neg (by decide)]
    | ⟨1, _⟩ => by show i.val = if (2048 : Nat) = 1 then 0 else i.val; rw [if_neg (by decide)]
    | ⟨2, _⟩ => by show 0 = if (1 : Nat) = 1 then 0 else j.val; rw [if_pos rfl])).trans ?_
  exact broadcastInDim_apply _ bcast_S4x2048_S4x2048x1_0_1 y (ix3 b i ⟨0, Nat.one_pos⟩) (ix2 b i) (fun a => match a with
    | ⟨0, _⟩ => by show b.val = if (4 : Nat) = 1 then 0 else b.val; rw [if_neg (by decide)]
    | ⟨1, _⟩ => by show i.val = if (2048 : Nat) = 1 then 0 else i.val; rw [if_neg (by decide)])

/-- One coordinate's difference at `(b, i, j)` is the specification's `delta`. -/
theorem diff_apply (kk : Nat) (hk : kk < 3) (h : S4x2048x3.Slices ![0, 0, kk] S4x2048x1) (pos : S4x2048x3.Idx → Ideal .f32)
    (nbr : S4x2048x2048.Idx → BitVec 32) (b : Fin 4) (i j : Fin 2048) :
    diff ![0, 0, kk] h pos nbr (ix3 b i j) = AtomDist.delta pos nbr b i j ⟨kk, hk⟩ := by
  unfold diff
  rw [subf_apply, gather_col_apply, selfBcast_apply, col_apply kk hk, col_apply kk hk]
  unfold AtomDist.delta AtomDist.row
  simp only [wrapV_apply]

/-- The host's squared distance table at `(b, i, j)` is the specification's. -/
theorem d2V_apply (pos : S4x2048x3.Idx → Ideal .f32) (nbr : S4x2048x2048.Idx → BitVec 32) (b : Fin 4) (i j : Fin 2048) :
    d2V pos nbr (ix3 b i j) = AtomDist.sqDist pos nbr b i j := by
  unfold d2V
  simp only [addf_apply, mulf_apply, diff_apply 0 (by decide), diff_apply 1 (by decide), diff_apply 2 (by decide)]
  rfl

/-- The mask column at `(b, i, 0)` is atom `i`'s bit as a float. -/
theorem rowMaskV_apply (msk : S4x2048.Idx → BitVec 1) (b : Fin 4) (i : Fin 2048) :
    rowMaskV msk (ix3 b i ⟨0, Nat.one_pos⟩) = (((msk (ix2 b i)).toNat : ℝ) : EReal) := by
  unfold rowMaskV
  refine (shapeCast_apply _ shapeCasts_S4x2048_S4x2048x1 (ix3 b i ⟨0, Nat.one_pos⟩) (ix2 b i) ?_).trans rfl
  rw [Shape.rowMajor_val_three, Shape.rowMajor_val_two]
  show b.val * 2048 + i.val = (b.val * 2048 + i.val) * 1 + 0
  omega

/-- The mask row at `(b, 0, j)` is atom `j`'s bit as a float. -/
theorem colMaskV_apply (msk : S4x2048.Idx → BitVec 1) (b : Fin 4) (j : Fin 2048) :
    colMaskV msk (ix3 b ⟨0, Nat.one_pos⟩ j) = (((msk (ix2 b j)).toNat : ℝ) : EReal) := by
  unfold colMaskV
  refine (shapeCast_apply _ shapeCasts_S4x2048_S4x1x2048 (ix3 b ⟨0, Nat.one_pos⟩ j) (ix2 b j) ?_).trans rfl
  rw [Shape.rowMajor_val_three, Shape.rowMajor_val_two]
  show b.val * 2048 + j.val = (b.val * 1 + 0) * 2048 + j.val
  omega

/-! ## What the region finds in the three arrays -/

variable (m : (ℓ : Loc nD τ sig) → Buf (Elt Ideal) ℓ) (c : Dev nD)

set_option maxRecDepth 8192 in
set_option maxHeartbeats 4000000 in
theorem V_rowMask : (V m c main_call0_v42 : S4x2048x1.Idx → Ideal .f32)
    = rowMaskV (m ((c.tc : Thread nD τ).loc main_arg2)) := by
  dsimp only [V, hostOps0]
  after_results_simp <;> rfl

set_option maxRecDepth 8192 in
set_option maxHeartbeats 4000000 in
theorem V_colMask : (V m c main_call0_v43 : S4x1x2048.Idx → Ideal .f32)
    = colMaskV (m ((c.tc : Thread nD τ).loc main_arg2)) := by
  dsimp only [V, hostOps0]
  after_results_simp <;> rfl

set_option maxRecDepth 8192 in
set_option maxHeartbeats 4000000 in
theorem V_d2 : (V m c main_call0_v40 : S4x2048x2048.Idx → Ideal .f32)
    = d2V (m ((c.tc : Thread nD τ).loc main_arg0)) (m ((c.tc : Thread nD τ).loc main_arg1)) := by
  dsimp only [V, hostOps0]
  after_results_simp <;> rfl

/-! ## The three arrays at an index -/

/-- The squared-distance array the region stages, at `(b, i, j)`. -/
theorem V_d2_apply (b : Fin 4) (i j : Fin 2048) :
    (V m c main_call0_v40 : S4x2048x2048.Idx → Ideal .f32) (ix3 b i j)
      = AtomDist.sqDist (m ((c.tc : Thread nD τ).loc main_arg0)) (m ((c.tc : Thread nD τ).loc main_arg1)) b i j :=
  (congrFun (V_d2 m c) (ix3 b i j)).trans (d2V_apply _ _ b i j)

/-- The mask column the region stages, at `(b, i, 0)`. -/
theorem V_rowMask_apply (b : Fin 4) (i : Fin 2048) :
    (V m c main_call0_v42 : S4x2048x1.Idx → Ideal .f32) (ix3 b i ⟨0, Nat.one_pos⟩)
      = ((((m ((c.tc : Thread nD τ).loc main_arg2) : S4x2048.Idx → BitVec 1) (ix2 b i)).toNat : ℝ) : EReal) :=
  (congrFun (V_rowMask m c) (ix3 b i ⟨0, Nat.one_pos⟩)).trans (rowMaskV_apply _ b i)

/-- The mask row the region stages, at `(b, 0, j)`. -/
theorem V_colMask_apply (b : Fin 4) (j : Fin 2048) :
    (V m c main_call0_v43 : S4x1x2048.Idx → Ideal .f32) (ix3 b ⟨0, Nat.one_pos⟩ j)
      = ((((m ((c.tc : Thread nD τ).loc main_arg2) : S4x2048.Idx → BitVec 1) (ix2 b j)).toNat : ℝ) : EReal) :=
  (congrFun (V_colMask m c) (ix3 b ⟨0, Nat.one_pos⟩ j)).trans (colMaskV_apply _ b j)

end AtomDist.Host

end
-- ==== Proof.Body.lean ====
/-
  The kernel body's stored value at an index.

  At grid point `(b, p)` the body loads a block `[1, 256, 2048]` of squared distances (256 query atoms by all 2048
  slots), the mask column `[1, 256, 1]` of those atoms and the mask row `[1, 1, 2048]` of all atoms, and stores one block.
  Element `(0, r, cc)` of what it stores depends on the squared distance at `(0, r, cc)`, on the two mask values
  `(0, r, 0)` and `(0, 0, cc)`, and on whether the atom's position `r + 256 · p` equals the slot `cc`: it is the
  specification's `entry` of those three. Every operation of the body is elementwise except the changes of layout (the
  unit axes dropped and restored, the column and the row broadcast to the block, the two position counters), each read
  at an index below.
-/
import proofs.«160509_j42941083025444_2_alg».proof.Proof.Gen.KernelIdeal.Skeleton
import proofs.«160509_j42941083025444_2_alg».proof.Proof.Spec
import Idealize.ShloMosaic.Lib.Pipeline.Value
import Idealize.ShloMosaic.Lib.ValueIdx
import Idealize.ShloMosaic.PureOps.Ideal

noncomputable section

namespace AtomDist.Body

open Cert.KernelIdeal Cert.KernelIdeal.Gen
open Idealize.ShloMosaic Idealize.ShloMosaic.ValueIdx

/-! ## The changes of layout, read at an index -/

/-- The block of squared distances viewed `[256, 2048]`: `(r, cc)` reads `(0, r, cc)`. -/
theorem dropUnit_d2 (x0 : Vec Ideal S1x256x2048 .f32) (r : Fin 256) (cc : Fin 2048) :
    shapeCast S256x2048 x0 shapeCasts_S1x256x2048_S256x2048 (ix2 r cc) = x0 (ix3 ⟨0, Nat.one_pos⟩ r cc) := by
  refine shapeCast_apply _ shapeCasts_S1x256x2048_S256x2048 (ix2 r cc) (ix3 ⟨0, Nat.one_pos⟩ r cc) ?_
  rw [Shape.rowMajor_val_three, Shape.rowMajor_val_two]
  show (0 * 256 + r.val) * 2048 + cc.val = r.val * 2048 + cc.val
  omega

/-- The mask column broadcast to the block: `(r, cc)` reads `(0, r, 0)`. -/
theorem bcast_rowMask (x1 : Vec Ideal S1x256x1 .f32) (r : Fin 256) (cc : Fin 2048) :
    broadcastTo S256x2048 (shapeCast S256x1 x1 shapeCasts_S1x256x1_S256x1) broadcasts_S256x1_S256x2048 (ix2 r cc)
      = x1 (ix3 ⟨0, Nat.one_pos⟩ r ⟨0, Nat.one_pos⟩) := by
  refine (broadcastTo_apply _ broadcasts_S256x1_S256x2048 (ix2 r cc) (ix2 r ⟨0, Nat.one_pos⟩) (fun a => match a with
    | ⟨0, _⟩ => by show r.val = if (256 : Nat) = 1 then 0 else r.val; rw [if_neg (by decide)]
    | ⟨1, _⟩ => by show 0 = if (1 : Nat) = 1 then 0 else cc.val; rw [if_pos rfl])).trans ?_
  refine shapeCast_apply _ shapeCasts_S1x256x1_S256x1 (ix2 r ⟨0, Nat.one_pos⟩) (ix3 ⟨0, Nat.one_pos⟩ r ⟨0, Nat.one_pos⟩) ?_
  rw [Shape.rowMajor_val_three, Shape.rowMajor_val_two]
  show (0 * 256 + r.val) * 1 + 0 = r.val * 1 + 0
  omega

/-- The mask row broadcast to the block: `(r, cc)` reads `(0, 0, cc)`. -/
theorem bcast_colMask (x2 : Vec Ideal S1x1x2048 .f32) (r : Fin 256) (cc : Fin 2048) :
    broadcastTo S256x2048 (shapeCast S1x2048 x2 shapeCasts_S1x1x2048_S1x2048) broadcasts_S1x2048_S256x2048 (ix2 r cc)
      = x2 (ix3 ⟨0, Nat.one_pos⟩ ⟨0, Nat.one_pos⟩ cc) := by
  refine (broadcastTo_apply _ broadcasts_S1x2048_S256x2048 (ix2 r cc) (ix2 ⟨0, Nat.one_pos⟩ cc) (fun a => match a with
    | ⟨0, _⟩ => by show 0 = if (1 : Nat) = 1 then 0 else r.val; rw [if_pos rfl]
    | ⟨1, _⟩ => by show cc.val = if (2048 : Nat) = 1 then 0 else cc.val; rw [if_neg (by decide)])).trans ?_
  refine shapeCast_apply _ shapeCasts_S1x1x2048_S1x2048 (ix2 ⟨0, Nat.one_pos⟩ cc) (ix3 ⟨0, Nat.one_pos⟩ ⟨0, Nat.one_pos⟩ cc) ?_
  rw [Shape.rowMajor_val_three, Shape.rowMajor_val_two]
  show (0 * 1 + 0) * 2048 + cc.val = 0 * 2048 + cc.val
  omega

/-- The counter along the block's rows reads the row. -/
theorem iota_row (r : Fin 256) (cc : Fin 2048) :
    iota .tc S256x2048 32 [0] iota_S256x2048_d0_w32 (ix2 r cc) = BitVec.ofNat 32 r.val :=
  iota_single_apply .tc S256x2048 32 0 iota_S256x2048_d0_w32 (ix2 r cc)

/-- The counter along the block's slots reads the slot. -/
theorem iota_slot (r : Fin 256) (cc : Fin 2048) :
    iota .tc S256x2048 32 [1] iota_S256x2048_d1_w32 (ix2 r cc) = BitVec.ofNat 32 cc.val :=
  iota_single_apply .tc S256x2048 32 1 iota_S256x2048_d1_w32 (ix2 r cc)

/-- The computed `[256, 2048]` value stored as a `[1, 256, 2048]` block: `(0, r, cc)` reads `(r, cc)`. -/
theorem addUnit_out (v : FVec Ideal S256x2048 .f32) (r : Fin 256) (cc : Fin 2048) :
    shapeCast S1x256x2048 v shapeCasts_S256x2048_S1x256x2048 (ix3 ⟨0, Nat.one_pos⟩ r cc) = v (ix2 r cc) := by
  refine shapeCast_apply _ shapeCasts_S256x2048_S1x256x2048 (ix3 ⟨0, Nat.one_pos⟩ r cc) (ix2 r cc) ?_
  rw [Shape.rowMajor_val_three, Shape.rowMajor_val_two]
  show r.val * 2048 + cc.val = (0 * 256 + r.val) * 2048 + cc.val
  omega

/-! ## The stored value at an index -/

/-- Element `(0, r, cc)` of the block the body stores at a grid point `g`: the specification's `entry` of the squared
    distance there, of the bit "row `r` of this block is slot `cc`" (the row counted from the block's first atom,
    `256 · g 1`), and of the bit "the product of the two mask values is positive". -/
theorem pay_apply (g : grid0.Coords) (x0 : Vec Ideal S1x256x2048 .f32) (x1 : Vec Ideal S1x256x1 .f32)
    (x2 : Vec Ideal S1x1x2048 .f32) (r : Fin 256) (cc : Fin 2048) :
    k0_pay1 g x0 x1 x2 (ix3 ⟨0, Nat.one_pos⟩ r cc)
      = AtomDist.entry (x0 (ix3 ⟨0, Nat.one_pos⟩ r cc))
          (IntOp.cmpi .eq (IntOp.addi (BitVec.ofNat 32 r.val) (Scalar.muli (BitVec.ofNat 32 (g 1).val) 256#32))
            (BitVec.ofNat 32 cc.val))
          (Ideal.cmp .ogt (x1 (ix3 ⟨0, Nat.one_pos⟩ r ⟨0, Nat.one_pos⟩) * x2 (ix3 ⟨0, Nat.one_pos⟩ ⟨0, Nat.one_pos⟩ cc))
            (Ideal.ofBits .f32 0x00000000#32)) := by
  unfold k0_pay1
  refine (addUnit_out _ r cc).trans ?_
  unfold AtomDist.entry AtomDist.invDist
  rw [← dropUnit_d2 x0 r cc, ← bcast_rowMask x1 r cc, ← bcast_colMask x2 r cc, ← iota_row r cc, ← iota_slot r cc]
  rfl

end AtomDist.Body

end
-- ==== Proof.Blocks.lean ====
/-
  From blocks to the array: what the kernel's run leaves in its result.

  The grid has 4 × 8 points. At point `(b, p)` the output window's block is rows `256 p … 256 p + 255` of batch `b`, all
  2048 slots; the squared-distance window moves with it, the mask column follows it on the batch and row axes, the mask
  row on the batch axis only. So element `(0, r, cc)` of what the point writes back is the specification's entry at
  `(b, 256 p + r, cc)`: the squared distance there, the mask bits of atoms `256 p + r` and `cc`, and the diagonal test
  `r + 256 p = cc`. The 32 blocks tile the array, so after the run the array is the specification's table.
-/
import proofs.«160509_j42941083025444_2_alg».proof.Proof.FrameKernelIdeal
import proofs.«160509_j42941083025444_2_alg».proof.Proof.HostPrefix
import proofs.«160509_j42941083025444_2_alg».proof.Proof.Body
import proofs.«160509_j42941083025444_2_alg».proof.Proof.Spec
import Idealize.ShloMosaic.Lib.Pipeline.Value

noncomputable section

namespace AtomDist.Kernel

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array on device `c`: the specification's table of the three arguments as launched. -/
abbrev result (c : Dev nD) : S4x2048x2048.Idx → Ideal .f32 :=
  AtomDist.table (m ((c.tc : Thread nD τ).loc main_arg0)) (m ((c.tc : Thread nD τ).loc main_arg1))
    (m ((c.tc : Thread nD τ).loc main_arg2))

/-! ## The index maps over the grid -/

theorem hz3 : (![0, 0, 0] : Fin 3 → Nat) = fun _ => 0 := funext fun a => by fin_cases a <;> rfl

/-- The printed index maps, decided over the 32 points: the squared-distance window moves with the output's, the mask
    column with its batch and row block, the mask row with its batch; the output's block indices are the grid
    coordinates, in range, and `0` along the slots. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (2 : Fin 3) = 0 ∧ win0_3.index t (0 : Fin 3) ≤ 3 ∧ win0_3.index t (1 : Fin 3) ≤ 7
    ∧ (grid0.coords t (1 : Fin 2)).val = win0_3.index t (1 : Fin 3) :=
  (by decide +kernel : ∀ t : Fin grid0.N, _)

/-- Every block of the array is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- The diagonal test the body makes inside block `p` is the specification's on the atom `256 p + r`. -/
theorem diag_word (p r : Nat) :
    IntOp.addi (BitVec.ofNat 32 r) (Scalar.muli (BitVec.ofNat 32 p) 256#32) = BitVec.ofNat 32 (p * 256 + r) := by
  show BitVec.ofNat 32 r + BitVec.ofNat 32 p * BitVec.ofNat 32 256 = _
  rw [← BitVec.ofNat_mul, ← BitVec.ofNat_add, Nat.add_comm]

/-! ## A window's block read where the output's rectangle says -/

/-- Element `(0, r, cc)` of the squared-distance block at point `t` is the array at `(b, i, cc)`, for `b` the point's batch
    and `i` the atom `256 p + r`. -/
theorem blk0_read (c : Dev nD) (t : Fin cfg0.N) (r : Fin 256) (cc : Fin 2048) (b : Fin 4) (i : Fin 2048)
    (hb : b.val = win0_3.index t (0 : Fin 3)) (hi : i.val = win0_3.index t (1 : Fin 3) * 256 + r.val) :
    iblk m c 0 t (ix3 ⟨0, Nat.one_pos⟩ r cc) = (V m c main_call0_v40 : S4x2048x2048.Idx → Ideal .f32) (ix3 b i cc) := by
  obtain ⟨e00, e01, e02, -⟩ := idx_facts t
  show V m c main_call0_v40 (((cfg0.win 0).blk t).view.emb (ix3 ⟨0, Nat.one_pos⟩ r cc)) = V m c main_call0_v40 (ix3 b i cc)
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = i.val; omega
  | ⟨2, _⟩ => show win0_0.index t (2 : Fin 3) * 2048 + 1 * cc.val = cc.val; omega

/-- Element `(0, r, 0)` of the mask-column block at point `t` is the column at `(b, i, 0)`. -/
theorem blk1_read (c : Dev nD) (t : Fin cfg0.N) (r : Fin 256) (b : Fin 4) (i : Fin 2048)
    (hb : b.val = win0_3.index t (0 : Fin 3)) (hi : i.val = win0_3.index t (1 : Fin 3) * 256 + r.val) :
    iblk m c 1 t (ix3 ⟨0, Nat.one_pos⟩ r ⟨0, Nat.one_pos⟩)
      = (V m c main_call0_v42 : S4x2048x1.Idx → Ideal .f32) (ix3 b i ⟨0, Nat.one_pos⟩) := by
  obtain ⟨-, -, -, e10, e11, e12, -⟩ := idx_facts t
  show V m c main_call0_v42 (((cfg0.win 1).blk t).view.emb (ix3 ⟨0, Nat.one_pos⟩ r ⟨0, Nat.one_pos⟩)) = V m c main_call0_v42 (ix3 b i ⟨0, Nat.one_pos⟩)
  refine congrArg _ (funext fun a => Fin.ext ?_)
  match a with
  | ⟨0, _⟩ => show win0_1.index t (0 : Fin 3) * 1 + 1 * 0 = b.val; omega
  | ⟨1, _⟩ => show win0_1.index t (1 : Fin 3) * 256 + 1 * r.val = i.val; omega
  | ⟨2, _⟩ => show win0_1.index t (2 : Fin 3) * 1 + 1 * 0 = 0; omega

/-- Element `(0, 0, cc)` of the mask-row block at point `t` is the row at `(b, 0, cc)`. -/
theorem blk2_read (c : Dev nD) (t : Fin cfg0.N) (cc : Fin 2048) (b : Fin 4)
    (hb : b.val = win0_3.index t (0 : Fin 3)) :
    iblk m c 2 t (ix3 ⟨0, Nat.one_pos⟩ ⟨0, Nat.one_pos⟩ cc)
      = (V m c main_call0_v43 : S4x1x2048.Idx → Ideal .f32) (ix3 b ⟨0, Nat.one_pos⟩ cc) := by
  obtain ⟨-, -, -, -, -, -, e20, e21, e22, -⟩ := idx_facts t
  show V m c main_call0_v43 (((cfg0.win 2).blk t).view.emb (ix3 ⟨0, Nat.one_pos⟩ ⟨0, Nat.one_pos⟩ cc)) = V m c main_call0_v43 (ix3 b ⟨0, Nat.one_pos⟩ cc)
  refine congrArg _ (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * cc.val = cc.val; omega

/-- Element `(0, r, cc)` of the output block at point `t` sits in the array at `(b, i, cc)`. -/
theorem blk3_emb (t : Fin cfg0.N) (r : Fin 256) (cc : Fin 2048) (b : Fin 4) (i : Fin 2048)
    (hb : b.val = win0_3.index t (0 : Fin 3)) (hi : i.val = win0_3.index t (1 : Fin 3) * 256 + r.val) :
    ((cfg0.win 3).blk t).view.emb (ix3 ⟨0, Nat.one_pos⟩ r cc) = (ix3 b i cc : S4x2048x2048.Idx) := by
  obtain ⟨-, -, -, -, -, -, -, -, -, e32, -⟩ := idx_facts t
  refine funext fun a => Fin.ext ?_
  match a with
  | ⟨0, _⟩ => show win0_3.index t (0 : Fin 3) * 1 + 1 * 0 = b.val; omega
  | ⟨1, _⟩ => show win0_3.index t (1 : Fin 3) * 256 + 1 * r.val = i.val; omega
  | ⟨2, _⟩ => show win0_3.index t (2 : Fin 3) * 2048 + 1 * cc.val = cc.val; omega

/-! ## What a point writes back -/

/-- WHAT POINT `t` WRITES BACK is block `t` of the specification's table. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz3]
  simp only [View.ld_unit_zero (S := S1x256x2048) hz3, View.ld_unit_zero (S := S1x256x1) hz3,
    View.ld_unit_zero (S := S1x1x2048) hz3]
  obtain ⟨-, -, -, -, -, -, -, -, -, -, h0le, h1le, hg⟩ := idx_facts t
  funext y
  -- the block's index by its coordinates; the point's batch and the atom the row names
  obtain ⟨r, hr⟩ : ∃ r : Fin 256, r.val = (y 1).val := ⟨⟨(y 1).val, (y 1).isLt⟩, rfl⟩
  obtain ⟨cc, hcc⟩ : ∃ cc : Fin 2048, cc.val = (y 2).val := ⟨⟨(y 2).val, (y 2).isLt⟩, rfl⟩
  have hy0 : (y 0).val = 0 := by have : (y 0).val < 1 := (y 0).isLt; omega
  have hy : y = ix3 ⟨0, Nat.one_pos⟩ r cc := by
    funext a; apply Fin.ext
    match a with
    | ⟨0, _⟩ => exact hy0
    | ⟨1, _⟩ => exact hr.symm
    | ⟨2, _⟩ => exact hcc.symm
  obtain ⟨b, hb⟩ : ∃ b : Fin 4, b.val = win0_3.index t (0 : Fin 3) := ⟨⟨win0_3.index t (0 : Fin 3), by omega⟩, rfl⟩
  obtain ⟨i, hi⟩ : ∃ i : Fin 2048, i.val = win0_3.index t (1 : Fin 3) * 256 + r.val :=
    ⟨⟨win0_3.index t (1 : Fin 3) * 256 + r.val, by have := r.isLt; omega⟩, rfl⟩
  rw [hy]
  show k0_pay1 (grid0.coords t) (iblk m c 0 t) (iblk m c 1 t) (iblk m c 2 t) (ix3 ⟨0, Nat.one_pos⟩ r cc)
    = result m c (((cfg0.win 3).blk t).view.emb (ix3 ⟨0, Nat.one_pos⟩ r cc))
  refine (AtomDist.Body.pay_apply (grid0.coords t) (iblk m c 0 t) (iblk m c 1 t) (iblk m c 2 t) r cc).trans ?_
  dsimp only [result]
  rw [blk0_read m c t r cc b i hb hi, blk1_read m c t r b i hb hi, blk2_read m c t cc b hb, blk3_emb t r cc b i hb hi,
    AtomDist.Host.V_d2_apply, AtomDist.Host.V_rowMask_apply, AtomDist.Host.V_colMask_apply, AtomDist.table_apply,
    AtomDist.mask_product, hg, diag_word, ← hi]
  rfl

/-! ## The blocks tile the array -/

/-- An index of the array is in point `t`'s block iff each coordinate is in the block's range on its axis. -/
theorem mem_blk (t : Fin cfg0.N) (i : S4x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v0).slice (win0_3.rect t)).set ↔ _
  rw [View.set_slice_whole, Rect.mem_set_unit]
  exact Iff.rfl

/-- Every index of the array is in the block of the point `(i 0, i 1 / 256)`, which writes back. -/
theorem cover (i : S4x2048x2048.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- THE ARRAY after the run is the specification's table. -/
theorem final (c : Dev nD) : (dats m 0 c).arrAt 3 cfg0.N = result m c :=
  (dats m 0 c).arrAt_eq_of_cover 3 (result m c) (fun t _ => flushed_eq m c t) cover

/-! ## The run, read -/

/-- Every weakly fair execution of the idealized kernel terminates with the result array at the specification's table
    of the arguments and the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end AtomDist.Kernel

end
-- ==== Proof.LibGatherPair.lean ====
/-
  `stablehlo.gather` by a PAIR of start indices, read at an index.

  What `x[i0, i1, :]` of a table `x : [B, N, K]` at two integer index arrays of shape `[P, R, C]` lowers to once the two
  arrays are stacked along a trailing axis into start indices `[P, R, C, 2]`: a gather whose start index map is operand
  axes 0 and 1 (both collapsed, slice size 1), whose one offset axis is the result's last (slice size `K`, the whole
  of operand axis 2) and whose index vector is the trailing axis of the start indices. Result element `(p, i, j, k)` is
  the table at row `idx[p, i, j, 0]`, column `idx[p, i, j, 1]`, depth `k`, each start index read as a signed integer and
  clamped into its axis (`[0, B − 1]`, `[0, N − 1]`), as StableHLO's gather clamps every start index.
-/
import Idealize.ShloMosaic.Lib.ValueIdx

noncomputable section

namespace GatherPair

open Idealize.ShloMosaic Idealize.ShloMosaic.ValueIdx

variable {α : Type}

/-- Those dimension numbers for an operand `[B, N, K]`, start indices `[P, R, C, 2]` and a result `[P, R, C, K]`; their
    conditions `wf` are decided on a program's literal shapes. -/
abbrev dims (B N K P R C : Nat)
    (wf : GatherDims.WF ⟨3, ![B, N, K]⟩ ⟨4, ![P, R, C, 2]⟩ ⟨4, ![P, R, C, K]⟩ [3] [0, 1] [] [0, 1] [] 3 ![1, 1, K]) :
    GatherDims ⟨3, ![B, N, K]⟩ ⟨4, ![P, R, C, 2]⟩ ⟨4, ![P, R, C, K]⟩ where
  offsetDims := [3]
  collapsedSliceDims := [0, 1]
  operandBatchingDims := []
  startIndicesBatchingDims := []
  startIndexMap := [0, 1]
  indexVectorDim := 3
  sliceSizes := ![1, 1, K]
  wf := wf

/-- Component `c` of the start index of result element `(p, i, j, _)` is read at `(p, i, j, c)`: the result's batch
    coordinates, with `c` on the index vector's axis. -/
theorem siIdx_eq {B N K P R C : Nat}
    (wf : GatherDims.WF ⟨3, ![B, N, K]⟩ ⟨4, ![P, R, C, 2]⟩ ⟨4, ![P, R, C, K]⟩ [3] [0, 1] [] [0, 1] [] 3 ![1, 1, K])
    (p : Fin P) (i : Fin R) (j : Fin C) (k : Fin K) (c : Fin 2) :
    (dims B N K P R C wf).siIdx (ix4 p i j k) ⟨c.val, c.isLt⟩ = ix4 p i j c := by
  funext e; refine Fin.ext ?_
  match e with
  | ⟨0, _⟩ => rfl
  | ⟨1, _⟩ => rfl
  | ⟨2, _⟩ => rfl
  | ⟨3, _⟩ => rfl

/-- THE GATHER READ AT `(p, i, j, k)`: the operand at row `idx[p, i, j, 0]` and column `idx[p, i, j, 1]`, each read signed
    and clamped into its axis, and depth `k`. -/
theorem gather_apply {B N K P R C w : Nat} (hB : 0 < B) (hN : 0 < N)
    (wf : GatherDims.WF ⟨3, ![B, N, K]⟩ ⟨4, ![P, R, C, 2]⟩ ⟨4, ![P, R, C, K]⟩ [3] [0, 1] [] [0, 1] [] 3 ![1, 1, K])
    (x : (⟨3, ![B, N, K]⟩ : Shape).Idx → α) (idx : IVec ⟨4, ![P, R, C, 2]⟩ w)
    (p : Fin P) (i : Fin R) (j : Fin C) (k : Fin K) :
    Host.gather (dims B N K P R C wf) x idx (ix4 p i j k)
      = x (ix3 (⟨min (idx (ix4 p i j (0 : Fin 2))).toInt.toNat (B - 1), by omega⟩ : Fin B)
            (⟨min (idx (ix4 p i j (1 : Fin 2))).toInt.toNat (N - 1), by omega⟩ : Fin N) k) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  unfold Host.gather
  refine congrArg x (funext fun a => Fin.ext ?_)
  match a with
  | ⟨0, _⟩ =>
    -- a collapsed, indexed axis: the clamped first component of the start index, nothing else
    show (dims B N K P R C wf).start (ix4 p i j k) idx 0 + (dims B N K P R C wf).batchCoord (ix4 p i j k) 0
      + (dims B N K P R C wf).offCoord (ix4 p i j k) 0 = min (idx (ix4 p i j (0 : Fin 2))).toInt.toNat (B - 1)
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (dims B N K P R C wf).startIndexMap from m0)]
    have hsi : (dims B N K P R C wf).siIdx (ix4 p i j k) ⟨List.idxOf (0 : Fin 3) (dims B N K P R C wf).startIndexMap,
        List.idxOf_lt_length_iff.2 (show (0 : Fin 3) ∈ (dims B N K P R C wf).startIndexMap from m0)⟩
          = ix4 p i j (0 : Fin 2) := siIdx_eq wf p i j k (0 : Fin 2)
    rw [hsi]
    rfl
  | ⟨1, _⟩ =>
    -- the other collapsed, indexed axis: the clamped second component
    show (dims B N K P R C wf).start (ix4 p i j k) idx 1 + (dims B N K P R C wf).batchCoord (ix4 p i j k) 1
      + (dims B N K P R C wf).offCoord (ix4 p i j k) 1 = min (idx (ix4 p i j (1 : Fin 2))).toInt.toNat (N - 1)
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (dims B N K P R C wf).startIndexMap from m1)]
    have hsi : (dims B N K P R C wf).siIdx (ix4 p i j k) ⟨List.idxOf (1 : Fin 3) (dims B N K P R C wf).startIndexMap,
        List.idxOf_lt_length_iff.2 (show (1 : Fin 3) ∈ (dims B N K P R C wf).startIndexMap from m1)⟩
          = ix4 p i j (1 : Fin 2) := siIdx_eq wf p i j k (1 : Fin 2)
    rw [hsi]
    rfl
  | ⟨2, _⟩ =>
    -- the offset axis: no start index, the result's own last coordinate
    show (dims B N K P R C wf).start (ix4 p i j k) idx 2 + (dims B N K P R C wf).batchCoord (ix4 p i j k) 2
      + (dims B N K P R C wf).offCoord (ix4 p i j k) 2 = k.val
    rw [GatherDims.batchCoord_eq_zero _ _ _ List.not_mem_nil]
    unfold GatherDims.start GatherDims.offCoord
    rw [dif_neg (show (2 : Fin 3) ∉ (dims B N K P R C wf).startIndexMap from n2),
      dif_pos ((GatherDims.mem_sKept _ _).mpr ⟨n2, List.not_mem_nil⟩)]
    simp only [Nat.zero_add, Nat.add_zero]
    rfl

end GatherPair

end
-- ==== Proof.RefTable.lean ====
/-
  The reference program is the specification's table.

  The reference computes its result by some sixty array operations. Read at an index `(b, i, j)`, each operation reads
  its operands at indices determined by the literal shapes, so the whole program at `(b, i, j)` is a scalar expression
  in the three argument arrays. This file reads it stage by stage, from the leaves up:

  * the MASK: the two broadcasts of `mask[b, ·]` along the slot axis and along the atom axis, conjoined;
  * the DIAGONAL: the two iotas of a `2048 × 2048` square compared (one of them with `0` added);
  * the START INDICES of the gather: a pair, stacked along a trailing axis — the batch number itself, wrapped like a
    subscript (which does nothing to `0 … 3`, a finite fact), and the neighbour index wrapped like a subscript;
  * the GATHER by that pair (the general lemma of `LibGatherPair`): the neighbour's position;
  * the difference to the atom's own position, its square, the sum over the three coordinates (which starts from
    `0`: `zero_add_sum_three`), and the guarded inverse distance;
  * the two selects that zero the diagonal and the masked entries.
-/
import proofs.«160509_j42941083025444_2_alg».proof.Proof.Gen.ReferenceIdeal.Read
import proofs.«160509_j42941083025444_2_alg».proof.Proof.Spec
import proofs.«160509_j42941083025444_2_alg».proof.Proof.LibGatherPair

noncomputable section

namespace AtomDist.Ref

open Cert.ReferenceIdeal Cert.ReferenceIdeal.Gen Cert.ReferenceIdeal.Read Idealize.ShloMosaic Idealize.ShloMosaic.ValueIdx

/-! ## The mask and the diagonal -/

/-- The conjunction of the two broadcast masks at `(b, i, j)` is `mask[b, i] ∧ mask[b, j]`. -/
theorem mask_at (x2 : Msk) (b : Fin 4) (i j : Fin 2048) :
    val_main_v37 (F := Ideal) x2 (ix3 b i j) = bothKept x2 b i j := by
  rw [val_main_v37_apply, val_main_v35_apply, val_main_v33_apply, val_main_v36_apply, val_main_v34_apply]
  have h1 : idx_main_v33 (idx_main_v35 (ix3 b i j)) = ix2 b i :=
    funext fun a => Fin.ext (by match a with | ⟨0, _⟩ => rfl | ⟨1, _⟩ => rfl)
  have h2 : idx_main_v34 (idx_main_v36 (ix3 b i j)) = ix2 b j :=
    funext fun a => Fin.ext (by match a with | ⟨0, _⟩ => rfl | ⟨1, _⟩ => rfl)
  rw [h1, h2]
  rfl

/-- The broadcast comparison of the two iotas at `(b, i, j)` is the bit "`i = j`": adding the zero word changes
    nothing. -/
theorem diag_at (b : Fin 4) (i j : Fin 2048) :
    val_main_call2_v1 (F := Ideal) (ix3 b i j) = onDiag i j := by
  rw [val_main_call2_v1_apply, val_main_v43_apply, val_main_v42_apply, val_main_v41_apply, val_main_v38_apply,
    val_main_v39_apply, val_main_v40_apply, val_main_c_9_apply]
  show IntOp.cmpi .eq (IntOp.addi (BitVec.ofNat 32 i.val) 0#32) (BitVec.ofNat 32 j.val) = onDiag i j
  rw [show IntOp.addi (BitVec.ofNat 32 i.val) 0#32 = BitVec.ofNat 32 i.val from BitVec.add_zero _]
  rfl

/-! ## The two components of the gather's start index -/

/-- The first component at `(b, i, j)`: the batch number as a word, wrapped like a subscript into `[0, 4)`. -/
theorem batch_at (b : Fin 4) (i j : Fin 2048) :
    val_main_v13 (F := Ideal) (ix4 b i j (0 : Fin 1))
      = Scalar.select (IntOp.cmpi .slt (BitVec.ofNat 32 b.val) 0#32) (IntOp.addi (BitVec.ofNat 32 b.val) 4#32)
          (BitVec.ofNat 32 b.val) := by
  rw [val_main_v13_apply, val_main_v12_apply, val_main_v6_apply, val_main_v3_apply, val_main_v5_apply,
    val_main_v1_apply, val_main_v2_apply, val_main_v4_apply, val_main_v0_apply, val_main_c_apply, val_main_c_0_apply]

/-- A batch number is not negative and is below `4`, so wrapping and clamping it into `[0, 3]` give it back: a fact
    about the four words `0, 1, 2, 3`. -/
theorem batch_clamp (b : Fin 4) :
    min (Scalar.select (IntOp.cmpi .slt (BitVec.ofNat 32 b.val) 0#32) (IntOp.addi (BitVec.ofNat 32 b.val) 4#32)
      (BitVec.ofNat 32 b.val)).toInt.toNat (4 - 1) = b.val := by
  fin_cases b <;> decide

/-- The second component at `(b, i, j)`: the neighbour index wrapped like a subscript. -/
theorem atom_at (x1 : Nbr) (b : Fin 4) (i j : Fin 2048) :
    val_main_v14 (F := Ideal) x1 (ix4 b i j (0 : Fin 1)) = wrap (x1 (ix3 b i j)) := by
  rw [val_main_v14_apply, val_main_v11_apply, val_main_v8_apply, val_main_v10_apply, val_main_v7_apply,
    val_main_v9_apply, val_main_c_1_apply, val_main_c_2_apply]
  have h : idx_main_v14 (ix4 b i j (0 : Fin 1)) = ix3 b i j :=
    funext fun a => Fin.ext (by match a with | ⟨0, _⟩ => rfl | ⟨1, _⟩ => rfl | ⟨2, _⟩ => rfl)
  rw [h]
  rfl

/-- The stacked pair at `(b, i, j, 0)` is the first array at `(b, i, j, 0)`. -/
theorem pair_fst (x1 : Nbr) (b : Fin 4) (i j : Fin 2048) :
    val_main_v15 (F := Ideal) x1 (ix4 b i j (0 : Fin 2)) = val_main_v13 (F := Ideal) (ix4 b i j (0 : Fin 1)) := by
  unfold val_main_v15
  generalize val_main_v13 (F := Ideal) = u
  generalize val_main_v14 (F := Ideal) x1 = v
  exact concatenate_pair_apply_left (3 : Fin 4) u v concatenates_S4x2048x2048x1_S4x2048x2048x1_S4x2048x2048x2_d3 (ix4 b i j (0 : Fin 2)) rfl (ix4 b i j (0 : Fin 1))
    (fun c => by match c with | ⟨0, _⟩ => rfl | ⟨1, _⟩ => rfl | ⟨2, _⟩ => rfl | ⟨3, _⟩ => rfl)

/-- The stacked pair at `(b, i, j, 1)` is the second array at `(b, i, j, 0)`. -/
theorem pair_snd (x1 : Nbr) (b : Fin 4) (i j : Fin 2048) :
    val_main_v15 (F := Ideal) x1 (ix4 b i j (1 : Fin 2)) = val_main_v14 (F := Ideal) x1 (ix4 b i j (0 : Fin 1)) := by
  unfold val_main_v15
  generalize val_main_v13 (F := Ideal) = u
  generalize val_main_v14 (F := Ideal) x1 = v
  exact concatenate_pair_apply_right (3 : Fin 4) u v concatenates_S4x2048x2048x1_S4x2048x2048x1_S4x2048x2048x2_d3 (ix4 b i j (1 : Fin 2)) rfl rfl (ix4 b i j (0 : Fin 1))
    (fun c hc => by
      match c with
      | ⟨0, _⟩ => rfl
      | ⟨1, _⟩ => rfl
      | ⟨2, _⟩ => rfl
      | ⟨3, _⟩ => exact absurd rfl hc)
    rfl

/-! ## The gather, and the squared distance -/

/-- The gathered array at `(b, i, j, k)` is coordinate `k` of the atom the neighbour index names, in batch `b`. -/
theorem gather_at (x0 : Pos) (x1 : Nbr) (b : Fin 4) (i j : Fin 2048) (k : Fin 3) :
    val_main_v16 (F := Ideal) x0 x1 (ix4 b i j k) = x0 (ix3 b (row (x1 (ix3 b i j))) k) := by
  unfold val_main_v16
  have hd : gather_S4x2048x3_S4x2048x2048x2_S4x2048x2048x3_3_01_n_n_01_3_113
      = GatherPair.dims 4 2048 3 4 2048 2048 gather_S4x2048x3_S4x2048x2048x2_S4x2048x2048x3_3_01_n_n_01_3_113_wf := rfl
  rw [hd]
  refine (GatherPair.gather_apply (by decide) (by decide) _ x0 (val_main_v15 (F := Ideal) x1) b i j k).trans ?_
  refine congrArg x0 (funext fun a => Fin.ext ?_)
  match a with
  | ⟨0, _⟩ =>
    show min (val_main_v15 (F := Ideal) x1 (ix4 b i j (0 : Fin 2))).toInt.toNat (4 - 1) = b.val
    rw [pair_fst, batch_at]
    exact batch_clamp b
  | ⟨1, _⟩ =>
    show min (val_main_v15 (F := Ideal) x1 (ix4 b i j (1 : Fin 2))).toInt.toNat (2048 - 1) = (row (x1 (ix3 b i j))).val
    rw [pair_snd, atom_at]
    rfl
  | ⟨2, _⟩ => rfl

/-- The atom's own position, broadcast along the slot axis, at `(b, i, j, k)`. -/
theorem self_at (x0 : Pos) (b : Fin 4) (i j : Fin 2048) (k : Fin 3) :
    val_main_v18 (F := Ideal) x0 (ix4 b i j k) = x0 (ix3 b i k) := by
  rw [val_main_v18_apply, val_main_v17_apply]
  exact congrArg x0 (funext fun a => Fin.ext (by match a with | ⟨0, _⟩ => rfl | ⟨1, _⟩ => rfl | ⟨2, _⟩ => rfl))

/-- The squared difference at `(b, i, j, k)`. -/
theorem sq_at (x0 : Pos) (x1 : Nbr) (b : Fin 4) (i j : Fin 2048) (k : Fin 3) :
    val_main_v20 (F := Ideal) x0 x1 (ix4 b i j k) = delta x0 x1 b i j k * delta x0 x1 b i j k := by
  rw [val_main_v20_apply, val_main_v19_apply, gather_at, self_at]
  rfl

/-- The sum of the three squares from `0` at `(b, i, j)` is the squared distance. -/
theorem sqDist_at (x0 : Pos) (x1 : Nbr) (b : Fin 4) (i j : Fin 2048) :
    val_main_v21 (F := Ideal) x0 x1 (ix3 b i j) = sqDist x0 x1 b i j := by
  rw [val_main_v21_apply, val_main_cst_apply]
  have hidx : ∀ k : Fin 3, idx_main_v21 (ix3 b i j) k = ix4 b i j k := fun k =>
    funext fun a => Fin.ext (by match a with | ⟨0, _⟩ => rfl | ⟨1, _⟩ => rfl | ⟨2, _⟩ => rfl | ⟨3, _⟩ => rfl)
  simp only [hidx, sq_at]
  exact zero_add_sum_three fun k => delta x0 x1 b i j k * delta x0 x1 b i j k

/-! ## The inverse distance, and the entry -/

/-- The guarded `1 / (√d2 + ε)` at `(b, i, j)`. -/
theorem inv_at (x0 : Pos) (x1 : Nbr) (b : Fin 4) (i j : Fin 2048) :
    val_main_v32 (F := Ideal) x0 x1 (ix3 b i j) = invDist (sqDist x0 x1 b i j) := by
  rw [val_main_v32_apply, val_main_v31_apply, val_main_cst_8_apply, val_main_v30_apply, val_main_v28_apply,
    val_main_v27_apply, val_main_v25_apply, val_main_v24_apply, val_main_v23_apply, val_main_v26_apply,
    val_main_cst_5_apply, val_main_v22_apply, val_main_cst_3_apply, val_main_call1_v1_apply, val_main_call1_v0_apply,
    val_main_cst_6_apply, val_main_call0_v1_apply, val_main_call0_v0_apply, val_main_cst_4_apply, val_main_v29_apply,
    val_main_cst_7_apply, sqDist_at]
  rfl

/-- THE REFERENCE IS THE TABLE: the reference program's result, as a function of its three arguments, is the
    specification's table of guarded inverse distances, zeroed on the diagonal and off the mask. -/
theorem ref_eq_table
    (x0 : (⟨Cert.ReferenceIdeal.S4x2048x3, .f32⟩ : BufTy).Contents (Elt Ideal))
    (x1 : (⟨Cert.ReferenceIdeal.S4x2048x2048, .i32⟩ : BufTy).Contents (Elt Ideal))
    (x2 : (⟨Cert.ReferenceIdeal.S4x2048, .i1⟩ : BufTy).Contents (Elt Ideal)) :
    Cert.ReferenceIdeal.Read.val_main_v45 (F := Ideal) x0 x1 x2 = AtomDist.table x0 x1 x2 := by
  funext y
  obtain ⟨b, i, j, rfl⟩ : ∃ (b : Fin 4) (i j : Fin 2048), y = ix3 b i j := ⟨y 0, y 1, y 2, eq_ix3 y⟩
  rw [table_apply, val_main_v45_apply, val_main_v44_apply, val_main_call2_v2_apply, val_main_call2_v0_apply,
    val_main_cst_10_apply, val_main_call3_v1_apply, val_main_call3_v0_apply, val_main_cst_11_apply]
  rw [mask_at x2 b i j, diag_at b i j, inv_at x0 x1 b i j]
  rfl

end AtomDist.Ref

end
-- ==== Proof.lean ====
/-
  The certificate of the pairwise inverse-distance kernel against its reference.

  Both programs compute, for batch `b`, atom `i` and slot `j`: the atom the neighbour index `nbr[b, i, j]` names (wrapped
  like a subscript, read signed, clamped into range), the squared distance between it and atom `i` as the sum of three
  squared coordinate differences, `1 / (distance + ε)` with the square root guarded where the squared distance is not
  positive, `0` on the diagonal `i = j`, and `0` wherever atom `i` or atom `j` is masked out. `Proof/Spec.lean` states that
  table as one function of the three argument arrays.

  The kernel forms the squared distances on the host — three coordinate columns, each gathered row by row at the
  wrapped indices, the three squares added pairwise (`Proof/HostPrefix.lean`) — and finishes in a pipelined region of
  4 × 8 blocks of 256 atoms by 2048 slots, multiplying the mask bits as floats and testing the diagonal with the block's
  first atom added to the row counter (`Proof/Body.lean`); the 32 blocks tile the array (`Proof/Blocks.lean`). The
  reference gathers whole position rows with a two-component start index, sums the three squares from `0`, and takes the
  conjunction of the mask bits (`Proof/RefTable.lean`). The two sides are joined by two laws on the extended reals, neither
  of which asks the inputs to be finite: `0 + (a + b + c) = (a + b) + c` as sums, and "the product of two bits read as
  `0` or `1` is positive exactly when both are set".

  The frames: the kernel's, at both instances, from the frame run over the region (`Proof/FrameKernel.lean`,
  `Proof/FrameKernelIdeal.lean`); the reference's is its run with the result dropped. The ideal pass rewrote nothing, so
  `preserves` is `True`.
-/
import proofs.«160509_j42941083025444_2_alg».proof.Defs
import proofs.«160509_j42941083025444_2_alg».proof.Proof.Gen.Kernel
import proofs.«160509_j42941083025444_2_alg».proof.Proof.Gen.KernelIdeal
import proofs.«160509_j42941083025444_2_alg».proof.Proof.Gen.ReferenceIdeal
import proofs.«160509_j42941083025444_2_alg».proof.Proof.Gen.Pre_finite_inputs
import proofs.«160509_j42941083025444_2_alg».proof.Proof.Gen.ReferenceIdeal.Run
import proofs.«160509_j42941083025444_2_alg».proof.Proof.Gen.ReferenceIdeal.Read
import proofs.«160509_j42941083025444_2_alg».proof.Proof.FrameKernel
import proofs.«160509_j42941083025444_2_alg».proof.Proof.FrameKernelIdeal
import proofs.«160509_j42941083025444_2_alg».proof.Proof.Blocks
import proofs.«160509_j42941083025444_2_alg».proof.Proof.RefTable
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read at the extended reals: nothing to preserve. -/
theorem preserves : Cert.preserves_Kernel_KernelIdeal := trivial

/-- At the extended reals both programs end with the result array at the specification's table of the arguments: the
    kernel's run over its 32 blocks on one side, the reference's run read one operation at a time on the other, from
    memories that agree on the arguments. -/
theorem algebraic : Cert.algebraic_KernelIdeal_ReferenceIdeal := by
  intro m ρ m' ρ' _ hagree
  refine ⟨fun c => AtomDist.Kernel.result m c, AtomDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, AtomDist.Ref.ref_eq_table, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
